-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S10000x128 .f32) (main_arg1 : FVec F S10000x10000 .f32) (main_arg2 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S256x128 : Shape := ⟨2, ![256, 128]⟩
abbrev S200x10000 : Shape := ⟨2, ![200, 10000]⟩
abbrev S400x128 : Shape := ⟨2, ![400, 128]⟩
abbrev S200x128 : Shape := ⟨2, ![200, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S256x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c2_i32 : BitVec 32 := 2#32
  let arg0 : BitVec 32 := BitVec.ofNat 32 (i 0).val
  let v5 : BitVec 32 := Scalar.muli c2_i32 arg0
  let c200_i32 : BitVec 32 := 200#32
  let v6 : BitVec 32 := Scalar.muli v5 c200_i32
  let v7 : Index := Scalar.indexCast v6
  let c0_6 : Index := 0#32
  ![v7.toNat, 0]
def k0_off2 (i : grid0.Coords) : Fin 2 → Nat :=
  let c2_i32_7 : BitVec 32 := 2#32
  let arg0 : BitVec 32 := BitVec.ofNat 32 (i 0).val
  let v9 : BitVec 32 := Scalar.muli c2_i32_7 arg0
  let c1_i32 : BitVec 32 := 1#32
  let v10 : BitVec 32 := Scalar.addi v9 c1_i32
  let c200_i32_8 : BitVec 32 := 200#32
  let v11 : BitVec 32 := Scalar.muli v10 c200_i32_8
  let v12 : Index := Scalar.indexCast v11
  let c0_9 : Index := 0#32
  ![v12.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S200x10000_S200x10000_0_0 : ∀ a, (![0, 0] : Fin 2 → Nat) a + S200x10000.size a ≤ S200x10000.size a
  h_S200x10000 : 0 < S200x10000.numel
  h_S200x128 : 0 < S200x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .hbm, ⟨4, _⟩ => ⟨S10000x256, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KernelRegion.lean ====
/-
  The run of the graph-convolution kernel, at any float instance.

  The kernel is one pipelined region over 25 grid points. At point `t` it is handed two row blocks of the adjacency
  matrix (rows `400 t … 400 t + 199` and `400 t + 200 … 400 t + 399`: two input windows onto the SAME array), the whole
  feature matrix and the whole weight matrix, and writes a 400-row block of the result. Because two input windows read
  one array, that array's ownership is split in two halves at entry, one half per window; nothing writes it, so each half
  suffices for its window's fetches and the two halves are all that is needed to read the array back at the end.

  What the body leaves in the output block is stated as the canonical contents of its two stores (rows 0–199, rows
  200–399) over the blocks it loaded; the run's conclusion names every windowed array after the run through the
  pipeline library's `arrAt`.
-/
import proofs.«136736_g60533269070024_cont_9to1_m_1378_14_alg».proof.Proof.Gen.Kernel.Launch
import proofs.«136736_g60533269070024_cont_9to1_m_1378_14_alg».proof.Proof.Gen.Kernel.Skeleton
import proofs.«136736_g60533269070024_cont_9to1_m_1378_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the region alone, so the region finds every buffer as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input window's buffer holds its block at every point

The two adjacency windows are fetched at every point; the feature and weight windows only at the first, and the body
leaves them as it found them, so they still hold the (one) block at every later point. -/

theorem before_adjLo {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_adjHi {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_feat {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_wgt {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body loads and stores through -/

/-- The whole feature matrix. -/
abbrev rFeat : Rect S10000x128 := Rect.unit (s := S10000x128) ![0, 0] S10000x128.size inb_S10000x128_S10000x128_0_0
/-- A whole 200-row block of the adjacency matrix. -/
abbrev rAdj : Rect S200x10000 := Rect.unit (s := S200x10000) ![0, 0] S200x10000.size inb_S200x10000_S200x10000_0_0
/-- The 200 feature rows matching the first adjacency block of the point, -/
abbrev rRowsLo (i : grid0.Coords) : Rect S10000x128 := Rect.unit (s := S10000x128) (k0_off1 i) S200x128.size (k0_off1_inb i)
/-- and those matching the second. -/
abbrev rRowsHi (i : grid0.Coords) : Rect S10000x128 := Rect.unit (s := S10000x128) (k0_off2 i) S200x128.size (k0_off2_inb i)
/-- The top half of the weight matrix (rows 0–127) and its bottom half (rows 128–255). -/
abbrev rTop : Rect S256x128 := Rect.unit (s := S256x128) ![0, 0] S128x128.size inb_S256x128_S128x128_0_0
abbrev rBot : Rect S256x128 := Rect.unit (s := S256x128) ![128, 0] S128x128.size inb_S256x128_S128x128_128_0
/-- Rows 0–199 and rows 200–399 of the output block. -/
abbrev rOutLo : Rect S400x128 := Rect.unit (s := S400x128) ![0, 0] S200x128.size inb_S400x128_S200x128_0_0
abbrev rOutHi : Rect S400x128 := Rect.unit (s := S400x128) ![200, 0] S200x128.size inb_S400x128_S200x128_200_0

/-! ## What the body leaves in the output block -/

/-- The output block after the body at grid coordinates `i`, from the two adjacency blocks `aLo`, `aHi`, the feature
    matrix `x` and the weight matrix `w`: its two stores, the later one first. -/
def outBlock (i : grid0.Coords) (aLo aHi : Vec F S200x10000 .f32) (x : Vec F S10000x128 .f32) (w : Vec F S256x128 .f32) : Vec F S400x128 .f32 :=
  View.canon [⟨rOutHi, k0_pay2 (View.ld x rFeat) (View.ld aHi rAdj) (View.ld x (rRowsHi i)) (View.ld w rTop) (View.ld w rBot)⟩,
    ⟨rOutLo, k0_pay1 (View.ld x rFeat) (View.ld aLo rAdj) (View.ld x (rRowsLo i)) (View.ld w rTop) (View.ld w rBot)⟩]

/-- The two stores tile the 400-row block in 200-row pieces. -/
theorem outCover (p1 p0 : Vec F S200x128 .f32) (y : S400x128.Idx) :
    ∃ pc ∈ ([⟨rOutHi, p1⟩, ⟨rOutLo, p0⟩] : List (View.Piece (Elt F) S400x128 .f32)), y ∈ pc.1.set :=
  View.cover_of_tiled [⟨rOutHi, p1⟩, ⟨rOutLo, p0⟩] S200x128.size (by rfl) y

/-! ## The body's triple -/

set_option maxHeartbeats 4000000 in
/-- The body on whole staging buffers, the four inputs at read contents and the output at anything, returns holding
    the inputs as they were and the output at `outBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S256x128 .f32) (harg4 : arg4.IsWhole)
    (arg5 : Memref sig .tc .vmem S400x128 .f32) (harg5 : arg5.IsWhole)
    (aLo aHi : Vec F S200x10000 .f32) (x : Vec F S10000x128 .f32) (w : Vec F S256x128 .f32) (K : PUnit → sProp 𝕄) :
    iprop(owns (c : Thread nD τ) arg1 fullShare aLo ∗ owns (c : Thread nD τ) arg2 fullShare aHi ∗ owns (c : Thread nD τ) arg3 fullShare x
        ∗ owns (c : Thread nD τ) arg4 fullShare w ∗ (∃ d, owns (c : Thread nD τ) arg5 fullShare d)
        ∗ (iprop(owns (c : Thread nD τ) arg1 fullShare aLo ∗ owns (c : Thread nD τ) arg2 fullShare aHi ∗ owns (c : Thread nD τ) arg3 fullShare x
            ∗ owns (c : Thread nD τ) arg4 fullShare w ∗ owns (c : Thread nD τ) arg5 fullShare (outBlock i aLo aHi x w)) -∗ K ⟨⟩))
      ⊢ wp frame (wpE (defs₀ (F := F)) Variants.none c none) E (cc0__gcn_block_kernel i arg1 harg1 arg2 harg2 arg3 harg3 arg4 harg4 arg5 harg5) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _ _)

/-! ## The pipeline's proof data -/

/-- On core `c`: the arrays as the region finds them; after the body at point `t` each input's buffer still at its block
    and the output's at `outBlock` of the four input blocks; nothing kept between points beside the staging buffers
    (the invariant is empty); nothing owed. The adjacency array, read by two windows, is held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_adjLo (c : Dev nD) (t : Fin cfg0.N) : (dats m 0 c).after 0 t = iblk m c 0 t := by dsimp only [dats]
theorem after_adjHi (c : Dev nD) (t : Fin cfg0.N) : (dats m 0 c).after 1 t = iblk m c 1 t := by dsimp only [dats]
theorem after_feat (c : Dev nD) (t : Fin cfg0.N) : (dats m 0 c).after 2 t = iblk m c 2 t := by dsimp only [dats]
theorem after_wgt (c : Dev nD) (t : Fin cfg0.N) : (dats m 0 c).after 3 t = iblk m c 3 t := by dsimp only [dats]
theorem after_out (c : Dev nD) (t : Fin cfg0.N) :
    (dats m 0 c).after 4 t = outBlock (grid0.coords t) (iblk m c 0 t) (iblk m c 1 t) (iblk m c 2 t) (iblk m c 3 t) := by dsimp only [dats]

theorem found_adjLo (c : Dev nD) (t : Fin cfg0.N) (d) : (dats m 0 c).before 0 t d = iblk m c 0 t :=
  before_adjLo m (dats m 0 c) (A_eq m c 0) (after_adjLo m c) t d
theorem found_adjHi (c : Dev nD) (t : Fin cfg0.N) (d) : (dats m 0 c).before 1 t d = iblk m c 1 t :=
  before_adjHi m (dats m 0 c) (A_eq m c 1) (after_adjHi m c) t d
theorem found_feat (c : Dev nD) (t : Fin cfg0.N) (d) : (dats m 0 c).before 2 t d = iblk m c 2 t :=
  before_feat m (dats m 0 c) (A_eq m c 2) (after_feat m c) t d
theorem found_wgt (c : Dev nD) (t : Fin cfg0.N) (d) : (dats m 0 c).before 3 t d = iblk m c 3 t :=
  before_wgt m (dats m 0 c) (A_eq m c 3) (after_wgt m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_adjLo, found_adjHi, found_feat, found_wgt]
  rw [show (dats m 0 c).Φ t.succ = (dats m 0 c).Φ t.castSucc from rfl,
    show (dats m 0 c).owesAt () t.succ = (dats m 0 c).owesAt () t.castSucc from rfl,
    after_adjLo, after_adjHi, after_feat, after_wgt, after_out]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The adjacency array's ownership, split between its two windows -/

/-- The four distinct buffers behind the five windows' arrays, each held whole, make the pipeline's five arrays at
    entry: the adjacency buffer's full share is its left half (first window) and its right half (second window). -/
theorem arrays_of_bufs (c : Dev nD) :
    (Pipeline.arrBufs spec0 c (V m c) : sProp 𝕄) ⊢ (dats m 0 c).arrays ((dats m 0 c).arrAt · 0) := by
  have hb : (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)) := by
    unfold Pipeline.arrBufs
    exact bigSep_eq_bigSepL_of_eq [main_arg1, main_arg0, main_arg2, main_v0] (by decide) (by decide) _
  rw [hb]
  unfold Dat.arrays
  rw [bigSep_W0]
  rw [(arr_whole0 0).set_eq_univ, (arr_whole0 2).set_eq_univ, (arr_whole0 3).set_eq_univ, (arr_whole0 4).set_eq_univ]
  show _ ⊢ iprop((((c.tc : Thread nD τ).loc main_arg1) ↦{fullShare.left} V m c main_arg1) ∗ (((c.tc : Thread nD τ).loc main_arg1) ↦{fullShare.right} V m c main_arg1)
      ∗ (((c.tc : Thread nD τ).loc main_arg0) ↦{fullShare} V m c main_arg0) ∗ (((c.tc : Thread nD τ).loc main_arg2) ↦{fullShare} V m c main_arg2)
      ∗ (((c.tc : Thread nD τ).loc main_v0) ↦{fullShare} V m c main_v0))
  refine (sep_mono (pointsTo_share (PosShare.mem_left_op_right fullShare)).1 .rfl).trans ?_
  iintro ⟨⟨Hl, Hr⟩, H0, H2, H3⟩
  isplitl [Hl]; · iexact Hl
  isplitl [Hr]; · iexact Hr
  isplitl [H0]; · iexact H0
  isplitl [H2]; · iexact H2
  iexact H3

/-! ## The run -/

set_option backward.isDefEq.respectTransparency.types false in
/-- From any memory with zero counters, every weakly fair execution of the program terminates, and in every final state
    each windowed array holds what the pipeline library computes from the proof data: an input its entry contents, the
    output its entry contents overwritten block by block by `outBlock`. -/
theorem run_main : θ_run defs (onTc (τ := τ) (main (F := F))) (s₀ m ρ) (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp)) (Z := fun _ => iprop(emp))
    (hX := fun c => by rw [unscopedRest0_eq]; iintro -; isplitl [] <;> iempintro)
    (hin := fun c => by rw [scopedRest0_eq]; iintro -; iempintro)
    (hout := fun c => by rw [scopedRest0_eq]; iintro -; isplitl [] <;> iempintro)
    (QY := fun _ _ => True)
    (hY := fun c s' => by
      iintro ⟨-, -, HSI⟩; imodintro
      isplitr; · ipureintro; trivial
      iexact HSI)
    (hQ := fun s h c w => (h c).1 w)

end Cert.Kernel.Region

end
-- ==== Proof.KernelIdealRegion.lean ====
/-
  The run of the graph-convolution kernel, at any float instance.

  The kernel is one pipelined region over 25 grid points. At point `t` it is handed two row blocks of the adjacency
  matrix (rows `400 t … 400 t + 199` and `400 t + 200 … 400 t + 399`: two input windows onto the SAME array), the whole
  feature matrix and the whole weight matrix, and writes a 400-row block of the result. Because two input windows read
  one array, that array's ownership is split in two halves at entry, one half per window; nothing writes it, so each half
  suffices for its window's fetches and the two halves are all that is needed to read the array back at the end.

  What the body leaves in the output block is stated as the canonical contents of its two stores (rows 0–199, rows
  200–399) over the blocks it loaded; the run's conclusion names every windowed array after the run through the
  pipeline library's `arrAt`.
-/
import proofs.«136736_g60533269070024_cont_9to1_m_1378_14_alg».proof.Proof.Gen.KernelIdeal.Launch
import proofs.«136736_g60533269070024_cont_9to1_m_1378_14_alg».proof.Proof.Gen.KernelIdeal.Skeleton
import proofs.«136736_g60533269070024_cont_9to1_m_1378_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the region alone, so the region finds every buffer as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input window's buffer holds its block at every point

The two adjacency windows are fetched at every point; the feature and weight windows only at the first, and the body
leaves them as it found them, so they still hold the (one) block at every later point. -/

theorem before_adjLo {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_adjHi {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_feat {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_wgt {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body loads and stores through -/

/-- The whole feature matrix. -/
abbrev rFeat : Rect S10000x128 := Rect.unit (s := S10000x128) ![0, 0] S10000x128.size inb_S10000x128_S10000x128_0_0
/-- A whole 200-row block of the adjacency matrix. -/
abbrev rAdj : Rect S200x10000 := Rect.unit (s := S200x10000) ![0, 0] S200x10000.size inb_S200x10000_S200x10000_0_0
/-- The 200 feature rows matching the first adjacency block of the point, -/
abbrev rRowsLo (i : grid0.Coords) : Rect S10000x128 := Rect.unit (s := S10000x128) (k0_off1 i) S200x128.size (k0_off1_inb i)
/-- and those matching the second. -/
abbrev rRowsHi (i : grid0.Coords) : Rect S10000x128 := Rect.unit (s := S10000x128) (k0_off2 i) S200x128.size (k0_off2_inb i)
/-- The top half of the weight matrix (rows 0–127) and its bottom half (rows 128–255). -/
abbrev rTop : Rect S256x128 := Rect.unit (s := S256x128) ![0, 0] S128x128.size inb_S256x128_S128x128_0_0
abbrev rBot : Rect S256x128 := Rect.unit (s := S256x128) ![128, 0] S128x128.size inb_S256x128_S128x128_128_0
/-- Rows 0–199 and rows 200–399 of the output block. -/
abbrev rOutLo : Rect S400x128 := Rect.unit (s := S400x128) ![0, 0] S200x128.size inb_S400x128_S200x128_0_0
abbrev rOutHi : Rect S400x128 := Rect.unit (s := S400x128) ![200, 0] S200x128.size inb_S400x128_S200x128_200_0

/-! ## What the body leaves in the output block -/

/-- The output block after the body at grid coordinates `i`, from the two adjacency blocks `aLo`, `aHi`, the feature
    matrix `x` and the weight matrix `w`: its two stores, the later one first. -/
def outBlock (i : grid0.Coords) (aLo aHi : Vec F S200x10000 .f32) (x : Vec F S10000x128 .f32) (w : Vec F S256x128 .f32) : Vec F S400x128 .f32 :=
  View.canon [⟨rOutHi, k0_pay2 (View.ld x rFeat) (View.ld aHi rAdj) (View.ld x (rRowsHi i)) (View.ld w rTop) (View.ld w rBot)⟩,
    ⟨rOutLo, k0_pay1 (View.ld x rFeat) (View.ld aLo rAdj) (View.ld x (rRowsLo i)) (View.ld w rTop) (View.ld w rBot)⟩]

/-- The two stores tile the 400-row block in 200-row pieces. -/
theorem outCover (p1 p0 : Vec F S200x128 .f32) (y : S400x128.Idx) :
    ∃ pc ∈ ([⟨rOutHi, p1⟩, ⟨rOutLo, p0⟩] : List (View.Piece (Elt F) S400x128 .f32)), y ∈ pc.1.set :=
  View.cover_of_tiled [⟨rOutHi, p1⟩, ⟨rOutLo, p0⟩] S200x128.size (by rfl) y

/-! ## The body's triple -/

set_option maxHeartbeats 4000000 in
/-- The body on whole staging buffers, the four inputs at read contents and the output at anything, returns holding
    the inputs as they were and the output at `outBlock`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S256x128 .f32) (harg4 : arg4.IsWhole)
    (arg5 : Memref sig .tc .vmem S400x128 .f32) (harg5 : arg5.IsWhole)
    (aLo aHi : Vec F S200x10000 .f32) (x : Vec F S10000x128 .f32) (w : Vec F S256x128 .f32) (K : PUnit → sProp 𝕄) :
    iprop(owns (c : Thread nD τ) arg1 fullShare aLo ∗ owns (c : Thread nD τ) arg2 fullShare aHi ∗ owns (c : Thread nD τ) arg3 fullShare x
        ∗ owns (c : Thread nD τ) arg4 fullShare w ∗ (∃ d, owns (c : Thread nD τ) arg5 fullShare d)
        ∗ (iprop(owns (c : Thread nD τ) arg1 fullShare aLo ∗ owns (c : Thread nD τ) arg2 fullShare aHi ∗ owns (c : Thread nD τ) arg3 fullShare x
            ∗ owns (c : Thread nD τ) arg4 fullShare w ∗ owns (c : Thread nD τ) arg5 fullShare (outBlock i aLo aHi x w)) -∗ K ⟨⟩))
      ⊢ wp frame (wpE (defs₀ (F := F)) Variants.none c none) E (cc0__gcn_block_kernel i arg1 harg1 arg2 harg2 arg3 harg3 arg4 harg4 arg5 harg5) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _ _)

/-! ## The pipeline's proof data -/

/-- On core `c`: the arrays as the region finds them; after the body at point `t` each input's buffer still at its block
    and the output's at `outBlock` of the four input blocks; nothing kept between points beside the staging buffers
    (the invariant is empty); nothing owed. The adjacency array, read by two windows, is held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_adjLo (c : Dev nD) (t : Fin cfg0.N) : (dats m 0 c).after 0 t = iblk m c 0 t := by dsimp only [dats]
theorem after_adjHi (c : Dev nD) (t : Fin cfg0.N) : (dats m 0 c).after 1 t = iblk m c 1 t := by dsimp only [dats]
theorem after_feat (c : Dev nD) (t : Fin cfg0.N) : (dats m 0 c).after 2 t = iblk m c 2 t := by dsimp only [dats]
theorem after_wgt (c : Dev nD) (t : Fin cfg0.N) : (dats m 0 c).after 3 t = iblk m c 3 t := by dsimp only [dats]
theorem after_out (c : Dev nD) (t : Fin cfg0.N) :
    (dats m 0 c).after 4 t = outBlock (grid0.coords t) (iblk m c 0 t) (iblk m c 1 t) (iblk m c 2 t) (iblk m c 3 t) := by dsimp only [dats]

theorem found_adjLo (c : Dev nD) (t : Fin cfg0.N) (d) : (dats m 0 c).before 0 t d = iblk m c 0 t :=
  before_adjLo m (dats m 0 c) (A_eq m c 0) (after_adjLo m c) t d
theorem found_adjHi (c : Dev nD) (t : Fin cfg0.N) (d) : (dats m 0 c).before 1 t d = iblk m c 1 t :=
  before_adjHi m (dats m 0 c) (A_eq m c 1) (after_adjHi m c) t d
theorem found_feat (c : Dev nD) (t : Fin cfg0.N) (d) : (dats m 0 c).before 2 t d = iblk m c 2 t :=
  before_feat m (dats m 0 c) (A_eq m c 2) (after_feat m c) t d
theorem found_wgt (c : Dev nD) (t : Fin cfg0.N) (d) : (dats m 0 c).before 3 t d = iblk m c 3 t :=
  before_wgt m (dats m 0 c) (A_eq m c 3) (after_wgt m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_adjLo, found_adjHi, found_feat, found_wgt]
  rw [show (dats m 0 c).Φ t.succ = (dats m 0 c).Φ t.castSucc from rfl,
    show (dats m 0 c).owesAt () t.succ = (dats m 0 c).owesAt () t.castSucc from rfl,
    after_adjLo, after_adjHi, after_feat, after_wgt, after_out]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The adjacency array's ownership, split between its two windows -/

/-- The four distinct buffers behind the five windows' arrays, each held whole, make the pipeline's five arrays at
    entry: the adjacency buffer's full share is its left half (first window) and its right half (second window). -/
theorem arrays_of_bufs (c : Dev nD) :
    (Pipeline.arrBufs spec0 c (V m c) : sProp 𝕄) ⊢ (dats m 0 c).arrays ((dats m 0 c).arrAt · 0) := by
  have hb : (Pipeline.arrBufs spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)) := by
    unfold Pipeline.arrBufs
    exact bigSep_eq_bigSepL_of_eq [main_arg1, main_arg0, main_arg2, main_v0] (by decide) (by decide) _
  rw [hb]
  unfold Dat.arrays
  rw [bigSep_W0]
  rw [(arr_whole0 0).set_eq_univ, (arr_whole0 2).set_eq_univ, (arr_whole0 3).set_eq_univ, (arr_whole0 4).set_eq_univ]
  show _ ⊢ iprop((((c.tc : Thread nD τ).loc main_arg1) ↦{fullShare.left} V m c main_arg1) ∗ (((c.tc : Thread nD τ).loc main_arg1) ↦{fullShare.right} V m c main_arg1)
      ∗ (((c.tc : Thread nD τ).loc main_arg0) ↦{fullShare} V m c main_arg0) ∗ (((c.tc : Thread nD τ).loc main_arg2) ↦{fullShare} V m c main_arg2)
      ∗ (((c.tc : Thread nD τ).loc main_v0) ↦{fullShare} V m c main_v0))
  refine (sep_mono (pointsTo_share (PosShare.mem_left_op_right fullShare)).1 .rfl).trans ?_
  iintro ⟨⟨Hl, Hr⟩, H0, H2, H3⟩
  isplitl [Hl]; · iexact Hl
  isplitl [Hr]; · iexact Hr
  isplitl [H0]; · iexact H0
  isplitl [H2]; · iexact H2
  iexact H3

/-! ## The run -/

set_option backward.isDefEq.respectTransparency.types false in
/-- From any memory with zero counters, every weakly fair execution of the program terminates, and in every final state
    each windowed array holds what the pipeline library computes from the proof data: an input its entry contents, the
    output its entry contents overwritten block by block by `outBlock`. -/
theorem run_main : θ_run defs (onTc (τ := τ) (main (F := F))) (s₀ m ρ) (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp)) (Z := fun _ => iprop(emp))
    (hX := fun c => by rw [unscopedRest0_eq]; iintro -; isplitl [] <;> iempintro)
    (hin := fun c => by rw [scopedRest0_eq]; iintro -; iempintro)
    (hout := fun c => by rw [scopedRest0_eq]; iintro -; isplitl [] <;> iempintro)
    (QY := fun _ _ => True)
    (hY := fun c s' => by
      iintro ⟨-, -, HSI⟩; imodintro
      isplitr; · ipureintro; trivial
      iexact HSI)
    (hQ := fun s h c w => (h c).1 w)

end Cert.KernelIdeal.Region

end
-- ==== Proof.GcnSpec.lean ====
/-
  One graph-convolution layer as a function of its three arguments, index by index, on the extended reals.

  With `x` the 10000 × 128 features, `adj` the 10000 × 10000 adjacency matrix and `w` the 256 × 128 weights,

      out[r, c] = Σ_{k < 128} x[r, k] · w[k, c]  +  Σ_{k < 128} (Σ_{l < 10000} adj[r, l] · x[l, k]) · w[128 + k, c].

  The first sum is the features against the top half of the weights, the second the aggregated features
  `adj · x` against the bottom half. Read the other way round, the two sums are ONE sum over the 256 columns of the
  row `[x[r, ·], (adj · x)[r, ·]]` against all of `w`: a sum over `Fin 256` is the sum over its first 128 indices plus
  the sum over its last 128 (`sum_halves`), which holds in any commutative monoid and so for every extended real,
  infinite ones included.
-/
import Idealize.ShloMosaic.PureOps.Ideal
import Idealize.ShloMosaic.Lib.ValueIdx

noncomputable section

namespace Gcn

open Idealize.ShloMosaic Idealize.ShloMosaic.ValueIdx

abbrev SFeat : Shape := ⟨2, ![10000, 128]⟩
abbrev SAdj : Shape := ⟨2, ![10000, 10000]⟩
abbrev SWgt : Shape := ⟨2, ![256, 128]⟩

/-- Row `r`, column `k` of the aggregated features `adj · x`. -/
def agg (x : SFeat.Idx → EReal) (adj : SAdj.Idx → EReal) (r : Fin 10000) (k : Fin 128) : EReal :=
  ∑ l : Fin 10000, adj (ix2 r l) * x (ix2 l k)

/-- The layer's result at row `r`, column `c`. -/
def layerAt (x : SFeat.Idx → EReal) (adj : SAdj.Idx → EReal) (w : SWgt.Idx → EReal) (r : Fin 10000) (c : Fin 128) : EReal :=
  (∑ k : Fin 128, x (ix2 r k) * w (ix2 (⟨k.val, by omega⟩ : Fin 256) c))
    + ∑ k : Fin 128, agg x adj r k * w (ix2 (⟨128 + k.val, by omega⟩ : Fin 256) c)

/-- The layer's result, as an array. -/
def layer (x : SFeat.Idx → EReal) (adj : SAdj.Idx → EReal) (w : SWgt.Idx → EReal) : SFeat.Idx → EReal :=
  fun j => layerAt x adj w (j 0) (j 1)

/-- A sum over 256 indices is the sum over the first 128 plus the sum over the last 128. -/
theorem sum_halves {M : Type} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

end Gcn

end
-- ==== Proof.KernelValue.lean ====
/-
  What the kernel leaves in the result array, at the ideal instance: `Gcn.layer` of its arguments.

  At grid point `t` the body stores, into rows `p` and `200 + p` of its 400-row output block (`p < 200`),

      (xrows · wTop)[p, q] + ((a · x) · wBot)[p, q],

  where `a` is the point's first (second) 200-row adjacency block, `xrows` the matching 200 rows of the features,
  `wTop`, `wBot` the two halves of the weights, and every product a contraction into a zero accumulator — at the
  ideal instance a plain finite sum. The first adjacency block of point `t` is rows `400 t …` of `adj`, the second
  rows `400 t + 200 …`, and the feature rows are loaded at the same offsets, so row `p` (`200 + p`) of the block is
  row `400 t + p` (`400 t + 200 + p`) of `Gcn.layer`: the block point `t` writes back is block `t` of the layer. The
  25 blocks of 400 rows cover the 10000 rows, so the array ends holding the layer.
-/
import proofs.«136736_g60533269070024_cont_9to1_m_1378_14_alg».proof.Proof.KernelIdealRegion
import proofs.«136736_g60533269070024_cont_9to1_m_1378_14_alg».proof.Proof.GcnSpec
import Idealize.ShloMosaic.Lib.ValueIdx
import Idealize.ShloMosaic.Lib.Pipeline.Value
import Idealize.ShloMosaic.PureOps.Ideal.Laws

set_option maxRecDepth 16384

noncomputable section

namespace Cert.KernelIdeal.LayerValue

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat)

/-! ## The body's two contractions at an index -/

theorem dotAdj_lhs0 (i : S200x128.Idx) (κ : dot_S200x10000_S10000x128_S200x128_1_0_0_1_n_n.contr.Idx) : (dot_S200x10000_S10000x128_S200x128_1_0_0_1_n_n.lhsIdx i κ 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem dotAdj_lhs1 (i : S200x128.Idx) (κ : dot_S200x10000_S10000x128_S200x128_1_0_0_1_n_n.contr.Idx) : (dot_S200x10000_S10000x128_S200x128_1_0_0_1_n_n.lhsIdx i κ 1).val = (κ ⟨0, by decide⟩).val :=
  dot_S200x10000_S10000x128_S200x128_1_0_0_1_n_n.lhsIdx_val_of_single rfl i κ
theorem dotAdj_rhs0 (i : S200x128.Idx) (κ : dot_S200x10000_S10000x128_S200x128_1_0_0_1_n_n.contr.Idx) : (dot_S200x10000_S10000x128_S200x128_1_0_0_1_n_n.rhsIdx i κ 0).val = (κ ⟨0, by decide⟩).val :=
  dot_S200x10000_S10000x128_S200x128_1_0_0_1_n_n.rhsIdx_val_of_single rfl i κ
theorem dotAdj_rhs1 (i : S200x128.Idx) (κ : dot_S200x10000_S10000x128_S200x128_1_0_0_1_n_n.contr.Idx) : (dot_S200x10000_S10000x128_S200x128_1_0_0_1_n_n.rhsIdx i κ 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- A 200-row adjacency block against the features, into a zero accumulator: the sum over the 10000 nodes. -/
theorem dotAdj_apply (l : FVec Ideal S200x10000 .f32) (r : FVec Ideal S10000x128 .f32) (p : Fin 200) (q : Fin 128) :
    matmul (F := Ideal) dot_S200x10000_S10000x128_S200x128_1_0_0_1_n_n none l r (constant (F := Ideal) S200x128 .f32 0x00000000#32) (ix2 p q)
      = ∑ k : Fin 10000, l (ix2 p k) * r (ix2 k q) := by
  refine (Ideal.matmul_constant_zero_apply dot_S200x10000_S10000x128_S200x128_1_0_0_1_n_n none l r (ix2 p q)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun b => Fin.ext (by
    match b with
    | ⟨0, _⟩ => exact dotAdj_lhs0 _ _
    | ⟨1, _⟩ => exact (dotAdj_lhs1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun b => Fin.ext (by
    match b with
    | ⟨0, _⟩ => exact (dotAdj_rhs0 _ _).trans hk
    | ⟨1, _⟩ => exact dotAdj_rhs1 _ _)
  rw [el, er]

theorem dotWgt_lhs0 (i : S200x128.Idx) (κ : dot_S200x128_S128x128_S200x128_1_0_0_1_n_n.contr.Idx) : (dot_S200x128_S128x128_S200x128_1_0_0_1_n_n.lhsIdx i κ 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem dotWgt_lhs1 (i : S200x128.Idx) (κ : dot_S200x128_S128x128_S200x128_1_0_0_1_n_n.contr.Idx) : (dot_S200x128_S128x128_S200x128_1_0_0_1_n_n.lhsIdx i κ 1).val = (κ ⟨0, by decide⟩).val :=
  dot_S200x128_S128x128_S200x128_1_0_0_1_n_n.lhsIdx_val_of_single rfl i κ
theorem dotWgt_rhs0 (i : S200x128.Idx) (κ : dot_S200x128_S128x128_S200x128_1_0_0_1_n_n.contr.Idx) : (dot_S200x128_S128x128_S200x128_1_0_0_1_n_n.rhsIdx i κ 0).val = (κ ⟨0, by decide⟩).val :=
  dot_S200x128_S128x128_S200x128_1_0_0_1_n_n.rhsIdx_val_of_single rfl i κ
theorem dotWgt_rhs1 (i : S200x128.Idx) (κ : dot_S200x128_S128x128_S200x128_1_0_0_1_n_n.contr.Idx) : (dot_S200x128_S128x128_S200x128_1_0_0_1_n_n.rhsIdx i κ 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- 200 rows of 128 features against a 128 × 128 half of the weights, into a zero accumulator: the sum over the 128 features. -/
theorem dotWgt_apply (l : FVec Ideal S200x128 .f32) (r : FVec Ideal S128x128 .f32) (p : Fin 200) (q : Fin 128) :
    matmul (F := Ideal) dot_S200x128_S128x128_S200x128_1_0_0_1_n_n none l r (constant (F := Ideal) S200x128 .f32 0x00000000#32) (ix2 p q)
      = ∑ k : Fin 128, l (ix2 p k) * r (ix2 k q) := by
  refine (Ideal.matmul_constant_zero_apply dot_S200x128_S128x128_S200x128_1_0_0_1_n_n none l r (ix2 p q)).trans ?_
  rw [← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun b => Fin.ext (by
    match b with
    | ⟨0, _⟩ => exact dotWgt_lhs0 _ _
    | ⟨1, _⟩ => exact (dotWgt_lhs1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun b => Fin.ext (by
    match b with
    | ⟨0, _⟩ => exact (dotWgt_rhs0 _ _).trans hk
    | ⟨1, _⟩ => exact dotWgt_rhs1 _ _)
  rw [el, er]

/-! ## The body's payload at an index -/

/-- Row `p`, column `q` of what the body stores: the feature rows against the top weights plus the aggregated rows
    against the bottom weights. -/
theorem pay1_apply (x : FVec Ideal S10000x128 .f32) (a : FVec Ideal S200x10000 .f32) (xr : FVec Ideal S200x128 .f32)
    (wt wb : FVec Ideal S128x128 .f32) (p : Fin 200) (q : Fin 128) :
    k0_pay1 (F := Ideal) x a xr wt wb (ix2 p q)
      = (∑ k : Fin 128, xr (ix2 p k) * wt (ix2 k q)) + ∑ k : Fin 128, (∑ l : Fin 10000, a (ix2 p l) * x (ix2 l k)) * wb (ix2 k q) := by
  unfold k0_pay1
  refine (addf_apply _ _ (ix2 p q)).trans ?_
  rw [dotWgt_apply, dotWgt_apply]
  refine congrArg _ (Finset.sum_congr rfl fun k _ => ?_)
  rw [dotAdj_apply]

/-- The second store's payload is the same function of its operands. -/
theorem pay2_eq (x : FVec Ideal S10000x128 .f32) (a : FVec Ideal S200x10000 .f32) (xr : FVec Ideal S200x128 .f32)
    (wt wb : FVec Ideal S128x128 .f32) : k0_pay2 (F := Ideal) x a xr wt wb = k0_pay1 (F := Ideal) x a xr wt wb := rfl

/-! ## Where the blocks sit: the index maps and the body's row offsets, decided over the 25 grid points -/

variable (m : (ℓ : Loc nD τ sig) → Buf (Elt Ideal) ℓ) (ρ : Dev nD → PrngReg)

/-- At point `t`: the adjacency windows are at block rows `2 t` and `2 t + 1` (of 200 rows), the feature and weight
    windows at their one block, the output at block row `t` (of 400 rows); the body's two feature-row loads start at
    rows `400 t` and `400 t + 200`. -/
theorem grid_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0
    ∧ k0_off2 (grid0.coords t) (0 : Fin 2) = 400 * t.val + 200 ∧ k0_off2 (grid0.coords t) (1 : Fin 2) = 0 :=
  (by decide +kernel : ∀ t : Fin grid0.N, _)

theorem point_lt (t : Fin cfg0.N) : t.val < 25 := by
  have h : t.val < grid0.N := t.isLt
  rwa [N_0] at h

/-! ## The loaded blocks at explicit coordinates -/

/-- Row `p` of the point's first adjacency block is row `400 t + p` of the adjacency matrix; -/
theorem adjLo_at (c : Dev nD) (t : Fin cfg0.N) (p : Fin 200) (l : Fin 10000) (h : 400 * t.val + p.val < 10000) :
    View.ld (iblk m c 0 t) rAdj (ix2 p l) = V m c main_arg1 (ix2 (⟨400 * t.val + p.val, h⟩ : Fin 10000) l) := by
  show V m c main_arg1 (((cfg0.win 0).blk t).view.emb (rAdj.idx (ix2 p l))) = _
  refine congrArg (V m c main_arg1) ?_
  obtain ⟨e0, e1, -⟩ := grid_facts t
  funext a; apply Fin.ext
  match a with
  | ⟨0, _⟩ => show win0_0.index t (0 : Fin 2) * 200 + 1 * (0 + 1 * p.val) = 400 * t.val + p.val; omega
  | ⟨1, _⟩ => show win0_0.index t (1 : Fin 2) * 10000 + 1 * (0 + 1 * l.val) = l.val; omega

/-- of its second block, row `400 t + 200 + p`. -/
theorem adjHi_at (c : Dev nD) (t : Fin cfg0.N) (p : Fin 200) (l : Fin 10000) (h : 400 * t.val + 200 + p.val < 10000) :
    View.ld (iblk m c 1 t) rAdj (ix2 p l) = V m c main_arg1 (ix2 (⟨400 * t.val + 200 + p.val, h⟩ : Fin 10000) l) := by
  show V m c main_arg1 (((cfg0.win 1).blk t).view.emb (rAdj.idx (ix2 p l))) = _
  refine congrArg (V m c main_arg1) ?_
  obtain ⟨-, -, e0, e1, -⟩ := grid_facts t
  funext a; apply Fin.ext
  match a with
  | ⟨0, _⟩ => show win0_1.index t (0 : Fin 2) * 200 + 1 * (0 + 1 * p.val) = 400 * t.val + 200 + p.val; omega
  | ⟨1, _⟩ => show win0_1.index t (1 : Fin 2) * 10000 + 1 * (0 + 1 * l.val) = l.val; omega

/-- The feature window is the whole feature matrix, -/
theorem featAll_at (c : Dev nD) (t : Fin cfg0.N) (l : Fin 10000) (k : Fin 128) :
    View.ld (iblk m c 2 t) rFeat (ix2 l k) = V m c main_arg0 (ix2 l k) := by
  show V m c main_arg0 (((cfg0.win 2).blk t).view.emb (rFeat.idx (ix2 l k))) = _
  refine congrArg (V m c main_arg0) ?_
  obtain ⟨-, -, -, -, e0, e1, -⟩ := grid_facts t
  funext a; apply Fin.ext
  match a with
  | ⟨0, _⟩ => show win0_2.index t (0 : Fin 2) * 10000 + 1 * (0 + 1 * l.val) = l.val; omega
  | ⟨1, _⟩ => show win0_2.index t (1 : Fin 2) * 128 + 1 * (0 + 1 * k.val) = k.val; omega

/-- its 200 rows loaded from the point's first offset are rows `400 t + p`, -/
theorem featLo_at (c : Dev nD) (t : Fin cfg0.N) (p : Fin 200) (k : Fin 128) (h : 400 * t.val + p.val < 10000) :
    View.ld (iblk m c 2 t) (rRowsLo (grid0.coords t)) (ix2 p k) = V m c main_arg0 (ix2 (⟨400 * t.val + p.val, h⟩ : Fin 10000) k) := by
  show V m c main_arg0 (((cfg0.win 2).blk t).view.emb ((rRowsLo (grid0.coords t)).idx (ix2 p k))) = _
  refine congrArg (V m c main_arg0) ?_
  obtain ⟨-, -, -, -, e0, e1, -, -, -, -, o0, o1, -⟩ := grid_facts t
  funext a; apply Fin.ext
  match a with
  | ⟨0, _⟩ => show win0_2.index t (0 : Fin 2) * 10000 + 1 * (k0_off1 (grid0.coords t) (0 : Fin 2) + 1 * p.val) = 400 * t.val + p.val; omega
  | ⟨1, _⟩ => show win0_2.index t (1 : Fin 2) * 128 + 1 * (k0_off1 (grid0.coords t) (1 : Fin 2) + 1 * k.val) = k.val; omega

/-- and those loaded from the second offset rows `400 t + 200 + p`. -/
theorem featHi_at (c : Dev nD) (t : Fin cfg0.N) (p : Fin 200) (k : Fin 128) (h : 400 * t.val + 200 + p.val < 10000) :
    View.ld (iblk m c 2 t) (rRowsHi (grid0.coords t)) (ix2 p k) = V m c main_arg0 (ix2 (⟨400 * t.val + 200 + p.val, h⟩ : Fin 10000) k) := by
  show V m c main_arg0 (((cfg0.win 2).blk t).view.emb ((rRowsHi (grid0.coords t)).idx (ix2 p k))) = _
  refine congrArg (V m c main_arg0) ?_
  obtain ⟨-, -, -, -, e0, e1, -, -, -, -, -, -, o0, o1⟩ := grid_facts t
  funext a; apply Fin.ext
  match a with
  | ⟨0, _⟩ => show win0_2.index t (0 : Fin 2) * 10000 + 1 * (k0_off2 (grid0.coords t) (0 : Fin 2) + 1 * p.val) = 400 * t.val + 200 + p.val; omega
  | ⟨1, _⟩ => show win0_2.index t (1 : Fin 2) * 128 + 1 * (k0_off2 (grid0.coords t) (1 : Fin 2) + 1 * k.val) = k.val; omega

/-- The weight window is the whole weight matrix: its top half is rows `k`, -/
theorem wgtTop_at (c : Dev nD) (t : Fin cfg0.N) (k : Fin 128) (q : Fin 128) :
    View.ld (iblk m c 3 t) rTop (ix2 k q) = V m c main_arg2 (ix2 (⟨k.val, by omega⟩ : Fin 256) q) := by
  show V m c main_arg2 (((cfg0.win 3).blk t).view.emb (rTop.idx (ix2 k q))) = _
  refine congrArg (V m c main_arg2) ?_
  obtain ⟨-, -, -, -, -, -, e0, e1, -⟩ := grid_facts t
  funext a; apply Fin.ext
  match a with
  | ⟨0, _⟩ => show win0_3.index t (0 : Fin 2) * 256 + 1 * (0 + 1 * k.val) = k.val; omega
  | ⟨1, _⟩ => show win0_3.index t (1 : Fin 2) * 128 + 1 * (0 + 1 * q.val) = q.val; omega

/-- its bottom half rows `128 + k`. -/
theorem wgtBot_at (c : Dev nD) (t : Fin cfg0.N) (k : Fin 128) (q : Fin 128) :
    View.ld (iblk m c 3 t) rBot (ix2 k q) = V m c main_arg2 (ix2 (⟨128 + k.val, by omega⟩ : Fin 256) q) := by
  show V m c main_arg2 (((cfg0.win 3).blk t).view.emb (rBot.idx (ix2 k q))) = _
  refine congrArg (V m c main_arg2) ?_
  obtain ⟨-, -, -, -, -, -, e0, e1, -⟩ := grid_facts t
  funext a; apply Fin.ext
  match a with
  | ⟨0, _⟩ => show win0_3.index t (0 : Fin 2) * 256 + 1 * (128 + 1 * k.val) = 128 + k.val; omega
  | ⟨1, _⟩ => show win0_3.index t (1 : Fin 2) * 128 + 1 * (0 + 1 * q.val) = q.val; omega

/-! ## The two stored pieces are rows of the layer -/

/-- The layer of the arrays the region finds on core `c`. -/
abbrev layerOf (c : Dev nD) : S10000x128.Idx → Elt Ideal .f32 :=
  Gcn.layer (V m c main_arg0) (V m c main_arg1) (V m c main_arg2)

/-- The first store's row `p` is row `400 t + p` of the layer, -/
theorem storeLo_at (c : Dev nD) (t : Fin cfg0.N) (p : Fin 200) (q : Fin 128) (h : 400 * t.val + p.val < 10000) :
    k0_pay1 (F := Ideal) (View.ld (iblk m c 2 t) rFeat) (View.ld (iblk m c 0 t) rAdj) (View.ld (iblk m c 2 t) (rRowsLo (grid0.coords t)))
        (View.ld (iblk m c 3 t) rTop) (View.ld (iblk m c 3 t) rBot) (ix2 p q)
      = Gcn.layerAt (V m c main_arg0) (V m c main_arg1) (V m c main_arg2) (⟨400 * t.val + p.val, h⟩ : Fin 10000) q := by
  refine (pay1_apply _ _ _ _ _ p q).trans ?_
  unfold Gcn.layerAt Gcn.agg
  refine congrArg₂ (· + ·) ?_ ?_
  · refine Finset.sum_congr rfl fun k _ => ?_
    rw [featLo_at m c t p k h, wgtTop_at m c t k q]
  · refine Finset.sum_congr rfl fun k _ => ?_
    rw [wgtBot_at m c t k q]
    refine congrArg (· * _) (Finset.sum_congr rfl fun l _ => ?_)
    rw [adjLo_at m c t p l h, featAll_at m c t l k]

/-- the second store's row `p` row `400 t + 200 + p`. -/
theorem storeHi_at (c : Dev nD) (t : Fin cfg0.N) (p : Fin 200) (q : Fin 128) (h : 400 * t.val + 200 + p.val < 10000) :
    k0_pay2 (F := Ideal) (View.ld (iblk m c 2 t) rFeat) (View.ld (iblk m c 1 t) rAdj) (View.ld (iblk m c 2 t) (rRowsHi (grid0.coords t)))
        (View.ld (iblk m c 3 t) rTop) (View.ld (iblk m c 3 t) rBot) (ix2 p q)
      = Gcn.layerAt (V m c main_arg0) (V m c main_arg1) (V m c main_arg2) (⟨400 * t.val + 200 + p.val, h⟩ : Fin 10000) q := by
  rw [pay2_eq]
  refine (pay1_apply _ _ _ _ _ p q).trans ?_
  unfold Gcn.layerAt Gcn.agg
  refine congrArg₂ (· + ·) ?_ ?_
  · refine Finset.sum_congr rfl fun k _ => ?_
    rw [featHi_at m c t p k h, wgtTop_at m c t k q]
  · refine Finset.sum_congr rfl fun k _ => ?_
    rw [wgtBot_at m c t k q]
    refine congrArg (· * _) (Finset.sum_congr rfl fun l _ => ?_)
    rw [adjHi_at m c t p l h, featAll_at m c t l k]

/-! ## What a point writes back is its block of the layer -/

/-- The 400-row block the body leaves at point `t`, index by index: the layer at the array index the output window's
    block places there. -/
theorem outBlock_at (c : Dev nD) (t : Fin cfg0.N) (y : S400x128.Idx) :
    outBlock (F := Ideal) (grid0.coords t) (iblk m c 0 t) (iblk m c 1 t) (iblk m c 2 t) (iblk m c 3 t) y
      = layerOf m c (((cfg0.win 4).blk t).view.emb y) := by
  have ht := point_lt t
  obtain ⟨-, -, -, -, -, -, -, -, e0, e1, -⟩ := grid_facts t
  unfold outBlock
  refine View.canon_apply_of_pieces (fun z : S400x128.Idx => layerOf m c (((cfg0.win 4).blk t).view.emb z)) _ ?_ y (outCover _ _ y)
  intro pc hpc z
  rcases List.mem_cons.mp hpc with rfl | hpc
  · -- the later store: rows 200–399 of the block
    obtain ⟨p, q, rfl⟩ : ∃ (p : Fin 200) (q : Fin 128), z = ix2 p q := ⟨z 0, z 1, eq_ix2 z⟩
    have hp : p.val < 200 := p.isLt
    refine (storeHi_at m c t p q (by omega)).trans ?_
    show _ = Gcn.layerAt (V m c main_arg0) (V m c main_arg1) (V m c main_arg2) _ _
    refine congrArg₂ (Gcn.layerAt (V m c main_arg0) (V m c main_arg1) (V m c main_arg2)) (Fin.ext ?_) (Fin.ext ?_)
    · show 400 * t.val + 200 + p.val = win0_4.index t (0 : Fin 2) * 400 + 1 * (200 + 1 * p.val); omega
    · show q.val = win0_4.index t (1 : Fin 2) * 128 + 1 * (0 + 1 * q.val); omega
  · -- the earlier store: rows 0–199
    obtain rfl : pc = _ := List.mem_singleton.mp hpc
    obtain ⟨p, q, rfl⟩ : ∃ (p : Fin 200) (q : Fin 128), z = ix2 p q := ⟨z 0, z 1, eq_ix2 z⟩
    have hp : p.val < 200 := p.isLt
    refine (storeLo_at m c t p q (by omega)).trans ?_
    show _ = Gcn.layerAt (V m c main_arg0) (V m c main_arg1) (V m c main_arg2) _ _
    refine congrArg₂ (Gcn.layerAt (V m c main_arg0) (V m c main_arg1) (V m c main_arg2)) (Fin.ext ?_) (Fin.ext ?_)
    · show 400 * t.val + p.val = win0_4.index t (0 : Fin 2) * 400 + 1 * (0 + 1 * p.val); omega
    · show q.val = win0_4.index t (1 : Fin 2) * 128 + 1 * (0 + 1 * q.val); omega

/-- What point `t` writes back is block `t` of the layer. -/
theorem flushed_eq (c : Dev nD) (t : Fin cfg0.N) :
    (dats m 0 c).flushed 4 t = ((cfg0.win 4).blk t).view.read (Elt Ideal) (layerOf m c) := by
  show (cfg0.win 4).cut (grid0.coords t) ((dats m 0 c).after 4 t) = _
  rw [after_out]
  funext y
  exact outBlock_at m c t y

/-! ## The blocks cover the array -/

theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row `r` of the array is written back by point `r / 400`. -/
theorem covered (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  have htv : t.val = (i 0).val / 400 := rfl
  obtain ⟨-, -, -, -, -, -, -, -, e0, e1, -⟩ := grid_facts t
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the run is the layer of the arguments. -/
theorem final (c : Dev nD) : (dats m 0 c).arrAt 4 cfg0.N = layerOf m c :=
  (dats m 0 c).arrAt_eq_of_cover 4 (layerOf m c) (fun t _ => flushed_eq m c t) covered

/-! ## The run, read -/

/-- Every weakly fair execution of the idealized kernel terminates with the result array at the layer of the argument
    arrays and the argument arrays unchanged. -/
theorem run : θ_run defs (onTc (τ := τ) (main (F := Ideal))) ⟨m, fun _ => 0, ρ⟩ fun r => ∀ c : Dev nD,
      r.2.mem ((c.tc : Thread nD τ).loc main_v0) = Gcn.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c 4).trans (final m c),
      (h c 2).trans (((dats m 0 c).arrAt_in 2 rfl _).trans (A_eq m c 2)),
      (h c 0).trans (((dats m 0 c).arrAt_in 0 rfl _).trans (A_eq m c 0)),
      (h c 3).trans (((dats m 0 c).arrAt_in 3 rfl _).trans (A_eq m c 3))⟩)
    (run_main m ρ)

end Cert.KernelIdeal.LayerValue

end
-- ==== Proof.RefSide.lean ====
/-
  The reference computes `Gcn.layer`.

  The reference is three host operations: `s = adj · x` (a contraction over 10000), the row-wise concatenation
  `[x, s]` (10000 × 256), and its product with `w` (a contraction over 256). At an index `(r, c)` the last is
  `Σ_{k < 256} [x, s][r, k] · w[k, c]`; its first 128 terms read `x[r, k]` (the concatenation's left piece), its
  last 128 read `s[r, k − 128]` (the right piece), so splitting the sum in halves gives exactly the two sums of
  `Gcn.layerAt`.
-/
import proofs.«136736_g60533269070024_cont_9to1_m_1378_14_alg».proof.Proof.Gen.ReferenceIdeal.Read
import proofs.«136736_g60533269070024_cont_9to1_m_1378_14_alg».proof.Proof.GcnSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- The aggregated features `adj · x` as the reference computes them, at row `r`, column `k`. -/
theorem agg_eq (x0 : (⟨S10000x128, .f32⟩ : BufTy).Contents (Elt Ideal)) (x1 : (⟨S10000x10000, .f32⟩ : BufTy).Contents (Elt Ideal))
    (r : Fin 10000) (k : Fin 128) : val_main_v0 (F := Ideal) x0 x1 (ix2 r k) = Gcn.agg x0 x1 r k := by
  rw [val_main_v0_apply]
  unfold Gcn.agg
  refine Finset.sum_congr rfl fun l _ => ?_
  have e1 : lidx_main_v0 (ix2 r k) l = ix2 r l := funext fun a => Fin.ext (by match a with | ⟨0, _⟩ => rfl | ⟨1, _⟩ => rfl)
  have e2 : ridx_main_v0 (ix2 r k) l = ix2 l k := funext fun a => Fin.ext (by match a with | ⟨0, _⟩ => rfl | ⟨1, _⟩ => rfl)
  rw [e1, e2]

/-- The concatenation `[x, adj · x]` at a column of its left half is `x`, -/
theorem cat_left (x0 : (⟨S10000x128, .f32⟩ : BufTy).Contents (Elt Ideal)) (x1 : (⟨S10000x10000, .f32⟩ : BufTy).Contents (Elt Ideal))
    (r : Fin 10000) (k : Fin 128) :
    val_main_v1 (F := Ideal) x0 x1 (ix2 r (⟨k.val, by omega⟩ : Fin 256)) = x0 (ix2 r k) := by
  unfold val_main_v1
  refine concatenate_pair_apply_left (t := S10000x256) (s₁ := S10000x128) (s₂ := S10000x128) 1 x0 (val_main_v0 (F := Ideal) x0 x1) _
    (ix2 r (⟨k.val, by omega⟩ : Fin 256)) rfl (ix2 r k) ?_
  intro b
  match b with
  | ⟨0, _⟩ => rfl
  | ⟨1, _⟩ => rfl

/-- and at a column of its right half the aggregated features. -/
theorem cat_right (x0 : (⟨S10000x128, .f32⟩ : BufTy).Contents (Elt Ideal)) (x1 : (⟨S10000x10000, .f32⟩ : BufTy).Contents (Elt Ideal))
    (r : Fin 10000) (k : Fin 128) :
    val_main_v1 (F := Ideal) x0 x1 (ix2 r (⟨128 + k.val, by omega⟩ : Fin 256)) = Gcn.agg x0 x1 r k := by
  unfold val_main_v1
  refine (concatenate_pair_apply_right (t := S10000x256) (s₁ := S10000x128) (s₂ := S10000x128) 1 x0 (val_main_v0 (F := Ideal) x0 x1) _
    (ix2 r (⟨128 + k.val, by omega⟩ : Fin 256)) rfl rfl (ix2 r k) ?_ ?_).trans (agg_eq x0 x1 r k)
  · intro b hb
    match b with
    | ⟨0, _⟩ => rfl
    | ⟨1, _⟩ => exact absurd rfl hb
  · show k.val + 128 = 128 + k.val
    omega

/-- The reference's result is the layer. -/
theorem result_eq (x0 : (⟨S10000x128, .f32⟩ : BufTy).Contents (Elt Ideal)) (x1 : (⟨S10000x10000, .f32⟩ : BufTy).Contents (Elt Ideal))
    (x2 : (⟨S256x128, .f32⟩ : BufTy).Contents (Elt Ideal)) :
    val_main_v2 (F := Ideal) x0 x1 x2 = Gcn.layer x0 x1 x2 := by
  funext j
  obtain ⟨r, c, rfl⟩ : ∃ (r : Fin 10000) (c : Fin 128), j = ix2 r c := ⟨j 0, j 1, eq_ix2 j⟩
  rw [val_main_v2_apply, Gcn.sum_halves]
  show _ = Gcn.layerAt x0 x1 x2 r c
  unfold Gcn.layerAt
  congr 1
  · refine Finset.sum_congr rfl fun k _ => ?_
    have e1 : lidx_main_v2 (ix2 r c) (⟨k.val, by omega⟩ : Fin 256) = ix2 r (⟨k.val, by omega⟩ : Fin 256) :=
      funext fun a => Fin.ext (by match a with | ⟨0, _⟩ => rfl | ⟨1, _⟩ => rfl)
    have e2 : ridx_main_v2 (ix2 r c) (⟨k.val, by omega⟩ : Fin 256) = ix2 (⟨k.val, by omega⟩ : Fin 256) c :=
      funext fun a => Fin.ext (by match a with | ⟨0, _⟩ => rfl | ⟨1, _⟩ => rfl)
    rw [e1, e2, cat_left]
  · refine Finset.sum_congr rfl fun k _ => ?_
    have e1 : lidx_main_v2 (ix2 r c) (⟨128 + k.val, by omega⟩ : Fin 256) = ix2 r (⟨128 + k.val, by omega⟩ : Fin 256) :=
      funext fun a => Fin.ext (by match a with | ⟨0, _⟩ => rfl | ⟨1, _⟩ => rfl)
    have e2 : ridx_main_v2 (ix2 r c) (⟨128 + k.val, by omega⟩ : Fin 256) = ix2 (⟨128 + k.val, by omega⟩ : Fin 256) c :=
      funext fun a => Fin.ext (by match a with | ⟨0, _⟩ => rfl | ⟨1, _⟩ => rfl)
    rw [e1, e2, cat_right]

end Cert.ReferenceIdeal.RefValue

end
-- ==== Proof.lean ====
/-
  The certificate of one graph-convolution layer: the Pallas kernel against its jnp reference.

  The reference computes `concat([x, adj · x], axis = 1) · w`; the kernel computes, 400 rows at a time,
  `x_rows · w[:128] + (adj_rows · x) · w[128:]`. On the extended reals both are, at row `r` and column `c`,

      Σ_{k < 128} x[r, k] · w[k, c]  +  Σ_{k < 128} (Σ_l adj[r, l] · x[l, k]) · w[128 + k, c]          (`Gcn.layer`)

  — for the reference because a sum over the 256 columns of the concatenation is the sum over its left half plus the
  sum over its right half (Proof/RefSide.lean), for the kernel because each of its matrix products into a zero
  accumulator is a plain sum, and the 25 blocks of 400 rows it writes back tile the 10000 rows
  (Proof/KernelValue.lean). Only commutativity and associativity of addition are used, so the inputs' finiteness is
  never needed.

  The kernel reads the adjacency matrix through TWO input windows (block rows `2 t` and `2 t + 1`). Its run
  (Proof/KernelRegion.lean at the word level, Proof/KernelIdealRegion.lean for the idealized program) therefore splits
  that array's ownership in halves between the two windows at entry; the arguments are only read, so they end
  unchanged: the three frames. The idealization rewrote nothing, so `preserves` has nothing to state.
-/
import proofs.«136736_g60533269070024_cont_9to1_m_1378_14_alg».proof.Defs
import proofs.«136736_g60533269070024_cont_9to1_m_1378_14_alg».proof.Proof.Gen.Kernel
import proofs.«136736_g60533269070024_cont_9to1_m_1378_14_alg».proof.Proof.Gen.Kernel.Skeleton
import proofs.«136736_g60533269070024_cont_9to1_m_1378_14_alg».proof.Proof.Gen.Kernel.Launch
import proofs.«136736_g60533269070024_cont_9to1_m_1378_14_alg».proof.Proof.Gen.Kernel.Points
import proofs.«136736_g60533269070024_cont_9to1_m_1378_14_alg».proof.Proof.Gen.KernelIdeal
import proofs.«136736_g60533269070024_cont_9to1_m_1378_14_alg».proof.Proof.Gen.KernelIdeal.Skeleton
import proofs.«136736_g60533269070024_cont_9to1_m_1378_14_alg».proof.Proof.Gen.KernelIdeal.Launch
import proofs.«136736_g60533269070024_cont_9to1_m_1378_14_alg».proof.Proof.Gen.KernelIdeal.Points
import proofs.«136736_g60533269070024_cont_9to1_m_1378_14_alg».proof.Proof.Gen.ReferenceIdeal
import proofs.«136736_g60533269070024_cont_9to1_m_1378_14_alg».proof.Proof.Gen.ReferenceIdeal.Run
import proofs.«136736_g60533269070024_cont_9to1_m_1378_14_alg».proof.Proof.Gen.ReferenceIdeal.Read
import proofs.«136736_g60533269070024_cont_9to1_m_1378_14_alg».proof.Proof.Gen.Pre_finite_inputs
import proofs.«136736_g60533269070024_cont_9to1_m_1378_14_alg».proof.Proof.KernelRegion
import proofs.«136736_g60533269070024_cont_9to1_m_1378_14_alg».proof.Proof.KernelIdealRegion
import proofs.«136736_g60533269070024_cont_9to1_m_1378_14_alg».proof.Proof.KernelValue
import proofs.«136736_g60533269070024_cont_9to1_m_1378_14_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its three arguments as they were: each is the array of an input window,
    which the pipeline never writes. -/
theorem frame_kernel : Cert.frame_Kernel := fun m ρ _ =>
  (θ_run Cert.Kernel.defs _ _).mono (fun r h c =>
      ⟨(h c 2).trans (((Cert.Kernel.Region.dats m 0 c).arrAt_in 2 rfl _).trans (Cert.Kernel.Region.A_eq m c 2)),
        (h c 0).trans (((Cert.Kernel.Region.dats m 0 c).arrAt_in 0 rfl _).trans (Cert.Kernel.Region.A_eq m c 0)),
        (h c 3).trans (((Cert.Kernel.Region.dats m 0 c).arrAt_in 3 rfl _).trans (Cert.Kernel.Region.A_eq m c 3))⟩)
    (Cert.Kernel.Region.run_main (F := Bits) m ρ)

/-- The idealized kernel likewise (its run with the result dropped). -/
theorem frame_kernelIdeal : Cert.frame_KernelIdeal := fun m ρ _ =>
  (θ_run Cert.KernelIdeal.defs _ _).mono (fun _ h c => (h c).2) (Cert.KernelIdeal.LayerValue.run m ρ)

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at `Gcn.layer` of the
    arguments: the kernel by its value leg, the reference because its last stage is the layer. -/
theorem algebraic : Cert.algebraic_KernelIdeal_ReferenceIdeal := by
  intro m ρ m' ρ' _ hagree
  refine ⟨fun c => Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.LayerValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
